-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S4096x1 : Shape := ⟨2, ![4096, 1]⟩
abbrev S3072x2048 : Shape := ⟨2, ![3072, 2048]⟩
abbrev S2048 : Shape := ⟨1, ![2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096x1 : S_.BroadcastsInDim S4096x1 (![] : Fin 0 → Fin S4096x1.rank)
  reducesTo_S4096x1_S_d0_1 : S4096x1.ReducesTo [0, 1] S_
  bcast_S_S3072x2048 : S_.BroadcastsInDim S3072x2048 (![] : Fin 0 → Fin S3072x2048.rank)
  reducesTo_S3072x2048_S_d0_1 : S3072x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_arg8 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  main_v43

def fn_part1 {F : FTy → Type} [FloatOps F] (main_arg4 : FVec F S2048 .f32) (main_arg5 : FVec F S3072x2048 .f32) (main_arg6 : FVec F S2048 .f32) (main_arg7 : FVec F S2048 .f32) (main_arg8 : FVec F S2048 .f32) (main_v13 : IVec S_ 1) (main_v16 : IVec S3072x2048 1) : IVec S_ 1 :=
  let main_c_5 : IVec S_ 1 := constantI S_ 1 1#1
  let main_v17 : IVec S_ 1 := (fun x v => Host.reduce IntOp.andi x v reducesTo_S3072x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S3072x2048 .f32 := Host.absf main_arg5
  let main_cst_8 : FVec F S_ .f32 := constant S_ .f32 0x7F800000#32
  let main_v25 : FVec F S3072x2048 .f32 := broadcastInDim S3072x2048 ![] bcast_S_S3072x2048 main_cst_8
  let main_v26 : IVec S3072x2048 1 := cmpf .olt main_v24 main_v25
  let main_c_9 : IVec S_ 1 := constantI S_ 1 1#1
  let main_v27 : IVec S_ 1 := (fun x v => Host.reduce IntOp.andi x v reducesTo_S3072x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4096x2048 .f32) (main_arg2 : FVec F S4096x1 .f32) (main_arg3 : FVec F S3072x2048 .f32) (main_arg4 : FVec F S2048 .f32) (main_arg5 : FVec F S3072x2048 .f32) (main_arg6 : FVec F S2048 .f32) (main_arg7 : FVec F S2048 .f32) (main_arg8 : FVec F S2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S3072x2048 .f32 := Host.absf main_arg3
  let main_cst_4 : FVec F S_ .f32 := constant S_ .f32 0x7F800000#32
  let main_v15 : FVec F S3072x2048 .f32 := broadcastInDim S3072x2048 ![] bcast_S_S3072x2048 main_cst_4
  let main_v16 : IVec S3072x2048 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S4096x2048 : Shape := ⟨2, ![4096, 2048]⟩
abbrev S4096x1 : Shape := ⟨2, ![4096, 1]⟩
abbrev S3072x2048 : Shape := ⟨2, ![3072, 2048]⟩
abbrev S2048 : Shape := ⟨1, ![2048]⟩
abbrev S1x2048 : Shape := ⟨2, ![1, 2048]⟩
abbrev S128x1024 : Shape := ⟨2, ![128, 1024]⟩
abbrev S128x2048 : Shape := ⟨2, ![128, 2048]⟩
abbrev S128x1 : Shape := ⟨2, ![128, 1]⟩
abbrev S128x3072 : Shape := ⟨2, ![128, 3072]⟩

abbrev nBuf : Space → Nat
  | .hbm => 16
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1, .f32⟩
  | .hbm, ⟨3, _⟩ => ⟨S3072x2048, .f32⟩
  | .hbm, ⟨4, _⟩ => ⟨S2048, .f32⟩
  | .hbm, ⟨5, _⟩ => ⟨S3072x2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S3072x2048, .bf16⟩
  | .hbm, ⟨10, _⟩ => ⟨S3072x2048, .bf16⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S4096x2048, .f32⟩
  | .local _ .vmem, ⟨0, _⟩ => ⟨S128x1024, .f32⟩
  | .local _ .vmem, ⟨1, _⟩ => ⟨S128x1024, .f32⟩
  | .local _ .vmem, ⟨2, _⟩ => ⟨S128x2048, .f32⟩
  | .local _ .vmem, ⟨3, _⟩ => ⟨S128x2048, .f32⟩
  | .local _ .vmem, ⟨4, _⟩ => ⟨S128x1, .f32⟩
  | .local _ .vmem, ⟨5, _⟩ => ⟨S128x1, .f32⟩
  | .local _ .vmem, ⟨6, _⟩ => ⟨S3072x2048, .bf16⟩
  | .local _ .vmem, ⟨7, _⟩ => ⟨S1x2048, .f32⟩
  | .local _ .vmem, ⟨8, _⟩ => ⟨S3072x2048, .bf16⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S128x2048, .f32⟩
  | .local _ .vmem, ⟨13, _⟩ => ⟨S128x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3072x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S2048_S1x2048 : S2048.ShapeCasts S1x2048
  inb_S128x1024_S128x1024_0_0 : ∀ a, (![0, 0] : Fin 2 → Nat) a + S128x1024.size a ≤ S128x1024.size a
  h_S128x1024 : 0 < S128x1024.numel
  inb_S128x2048_S128x2048_0_0 : ∀ a, (![0, 0] : Fin 2 → Nat) a + S128x2048.size a ≤ S128x2048.size a
  h_S128x2048 : 0 < S128x2048.numel
  concatenates_S128x1024_S128x2048_S128x3072_d1 : Shape.Concatenates [S128x1024, S128x2048] S128x3072 1
  inb_S3072x2048_S3072x2048_0_0 : ∀ a, (![0, 0] : Fin 2 → Nat) a + S3072x2048.size a ≤ S3072x2048.size a
  h_S3072x2048 : 0 < S3072x2048.numel
  shapeCasts_S3072x2048_S3072x2048 : S3072x2048.ShapeCasts S3072x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  inb_S128x1_S128x1_0_0 : ∀ a, (![0, 0] : Fin 2 → Nat) a + S128x1.size a ≤ S128x1.size a
  h_S128x1 : 0 < S128x1.numel
  broadcasts_S128x1_S128x2048 : S128x1.Broadcasts S128x2048
  dot_S128x3072_S3072x2048_S128x2048_1_0_0_1_n_n_wf : DotDims.WF S128x3072 S3072x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S4096x2048.size a
  hwx0_1 : ∀ i : grid0.Coords, EltTy.bits .f32 = 32 ∨ (Rect.block (s := S4096x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .f32 = 32 ∨ (Rect.block (s := S4096x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072x2048.size a ≤ S3072x2048.size a
  hwx0_3 : ∀ i : grid0.Coords, EltTy.bits .bf16 = 32 ∨ (Rect.block (s := S3072x2048) S3072x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3072x2048.size a ≤ S3072x2048.size a
  hwx0_5 : ∀ i : grid0.Coords, EltTy.bits .bf16 = 32 ∨ (Rect.block (s := S3072x2048) S3072x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S4096x2048.size a
  hwx0_9 : ∀ i : grid0.Coords, EltTy.bits .f32 = 32 ∨ (Rect.block (s := S4096x2048) S128x2048.size (cc0_transform_9 i) (hinb0_9 i)).WholeWords (EltTy.packing .f32)

variable [Facts₀]

def dot_S128x3072_S3072x2048_S128x2048_1_0_0_1_n_n : DotDims S128x3072 S3072x2048 S128x2048 where
  lhsContracting := [1]
  rhsContracting := [0]
  lhsNonContracting := [0]
  rhsNonContracting := [1]
  lhsBatch := []
  rhsBatch := []
  wf := dot_S128x3072_S3072x2048_S128x2048_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S3072x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S3072x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S128x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x2048 : Shape := ⟨2, ![4096, 2048]⟩
abbrev S4096x1 : Shape := ⟨2, ![4096, 1]⟩
abbrev S3072x2048 : Shape := ⟨2, ![3072, 2048]⟩
abbrev S2048 : Shape := ⟨1, ![2048]⟩
abbrev S4096x3072 : Shape := ⟨2, ![4096, 3072]⟩
abbrev S1x2048 : Shape := ⟨2, ![1, 2048]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1, .f32⟩
  | .hbm, ⟨3, _⟩ => ⟨S3072x2048, .f32⟩
  | .hbm, ⟨4, _⟩ => ⟨S2048, .f32⟩
  | .hbm, ⟨5, _⟩ => ⟨S3072x2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S4096x3072, .f32⟩
  | .hbm, ⟨10, _⟩ => ⟨S4096x2048, .f32⟩
  | .hbm, ⟨11, _⟩ => ⟨S1x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x1, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S1x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  concatenates_S4096x1024_S4096x2048_S4096x3072_d1 : Shape.Concatenates [S4096x1024, S4096x2048] S4096x3072 1
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  bcast_S4096x1_S4096x2048_0_1 : S4096x1.BroadcastsInDim S4096x2048 (![0, 1] : Fin 2 → Fin S4096x2048.rank)
  dot_S4096x3072_S3072x2048_S4096x2048_1_0_0_1_n_n_wf : DotDims.WF S4096x3072 S3072x2048 S4096x2048 [1] [0] [0] [1] [] []

variable [Facts₀]

def dot_S4096x3072_S3072x2048_S4096x2048_1_0_0_1_n_n : DotDims S4096x3072 S3072x2048 S4096x2048 where
  lhsContracting := [1]
  rhsContracting := [0]
  lhsNonContracting := [0]
  rhsNonContracting := [1]
  lhsBatch := []
  rhsBatch := []
  wf := dot_S4096x3072_S3072x2048_S4096x2048_1_0_0_1_n_n_wf

class Facts : Prop extends Facts₀ where

variable [Facts]
-- ==== Proof.Cell.lean ====
/-
  One step of a liquid-time-constant cell with a dense modulation and target branch, as a function of what
  one output entry depends on.

  The batch of states is `h : [4096, 2048]`, the inputs `x : [4096, 1024]`, the time steps `td : [4096, 1]`. Entry
  `(r, j)` of the new state depends on row `r` of `x` and of `h`, on `td r`, on column `j` of the two weight
  matrices (`[3072, 2048]`), and on entry `j` of the two biases, of the logarithm of the time constant and of the
  output bias:

      u      = [x r | h r]                                   (a row of 3072 numbers)
      f      = tanh (∑ k, u k · Wmod k j + bmod j)
      a      = tanh (∑ k, u k · Wtgt k j + btgt j)
      τ      = exp (logτ j)
      d      = exp (-(td r) / (τ / (1 + τ · |f|) + 10⁻⁶))
      h' r j = d · h r j + (1 - d) · (a + bias j)

  over the extended reals, with the division, the exponential and the hyperbolic tangent of the ideal reading of a
  float program. `cell` is that function of the two rows, the time step, the two columns and the four entries; `G`
  is the whole new state, entry by entry. Also here: a side-by-side concatenation of a `[R, 1024]` and a `[R, 2048]`
  array read at an entry is the joined row read at the column.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Ltc

open Idealize.ShloMosaic Idealize.ShloMosaic.ValueIdx

/-- The number one, as the extended real its single-precision word denotes. -/
abbrev one : EReal := Ideal.ofBits .f32 0x3F800000#32
/-- The single-precision number nearest to 10⁻⁶, as the extended real its word denotes. -/
abbrev eps : EReal := Ideal.ofBits .f32 0x358637BD#32

/-- A row of `x` followed by a row of `h`: positions below 1024 read `x`, the others read `h` 1024 places back. -/
def joined (xr : Fin 1024 → EReal) (hr : Fin 2048 → EReal) (k : Fin 3072) : EReal :=
  if hk : k.val < 1024 then xr ⟨k.val, hk⟩ else hr ⟨k.val - 1024, by have := k.isLt; omega⟩

/-- A branch before its hyperbolic tangent: the joined row against a weight column, plus a bias entry. -/
def pre (xr : Fin 1024 → EReal) (hr : Fin 2048 → EReal) (w : Fin 3072 → EReal) (b : EReal) : EReal :=
  (∑ k : Fin 3072, joined xr hr k * w k) + b

/-- The decay factor from the modulation `f`, the logarithm of the time constant and the time step. -/
def decay (f lt δ : EReal) : EReal :=
  Ideal.exp (Ideal.div (-δ) (Ideal.div (Ideal.exp lt) (one + Ideal.exp lt * max f (-f)) + eps))

/-- Entry `j` of the new state of one batch row. -/
def cell (xr : Fin 1024 → EReal) (hr : Fin 2048 → EReal) (δ : EReal) (wm : Fin 3072 → EReal) (bm : EReal)
    (wt : Fin 3072 → EReal) (bt lt bi : EReal) (j : Fin 2048) : EReal :=
  decay (Ideal.tanh (pre xr hr wm bm)) lt δ * hr j
    + (one - decay (Ideal.tanh (pre xr hr wm bm)) lt δ) * (Ideal.tanh (pre xr hr wt bt) + bi)

/-- The whole new state: entry `(r, j)` is `cell` of row `r` of `x` and `h`, of `td r`, of column `j` of the
    weights and of entry `j` of the four vectors. -/
def G (x : (⟨2, ![4096, 1024]⟩ : Shape).Idx → EReal) (h : (⟨2, ![4096, 2048]⟩ : Shape).Idx → EReal)
    (td : (⟨2, ![4096, 1]⟩ : Shape).Idx → EReal) (Wm : (⟨2, ![3072, 2048]⟩ : Shape).Idx → EReal)
    (bm : (⟨1, ![2048]⟩ : Shape).Idx → EReal) (Wt : (⟨2, ![3072, 2048]⟩ : Shape).Idx → EReal)
    (bt lt bi : (⟨1, ![2048]⟩ : Shape).Idx → EReal) : (⟨2, ![4096, 2048]⟩ : Shape).Idx → EReal :=
  fun i => cell (fun k => x (ix2 (i 0) k)) (fun k => h (ix2 (i 0) k)) (td (ix2 (i 0) 0))
    (fun k => Wm (ix2 k (i 1))) (bm (ix1 (i 1))) (fun k => Wt (ix2 k (i 1))) (bt (ix1 (i 1)))
    (lt (ix1 (i 1))) (bi (ix1 (i 1))) (i 1)

theorem G_apply (x : (⟨2, ![4096, 1024]⟩ : Shape).Idx → EReal) (h : (⟨2, ![4096, 2048]⟩ : Shape).Idx → EReal)
    (td : (⟨2, ![4096, 1]⟩ : Shape).Idx → EReal) (Wm : (⟨2, ![3072, 2048]⟩ : Shape).Idx → EReal)
    (bm : (⟨1, ![2048]⟩ : Shape).Idx → EReal) (Wt : (⟨2, ![3072, 2048]⟩ : Shape).Idx → EReal)
    (bt lt bi : (⟨1, ![2048]⟩ : Shape).Idx → EReal) (r : Fin 4096) (j : Fin 2048) :
    G x h td Wm bm Wt bt lt bi (ix2 r j)
      = cell (fun k => x (ix2 r k)) (fun k => h (ix2 r k)) (td (ix2 r 0))
          (fun k => Wm (ix2 k j)) (bm (ix1 j)) (fun k => Wt (ix2 k j)) (bt (ix1 j)) (lt (ix1 j)) (bi (ix1 j)) j := rfl

/-- Subtracting from the zero word is negating: on every extended real `0 - a = -a`. -/
theorem zero_word_sub (a : EReal) : Ideal.ofBits .f32 0x00000000#32 - a = -a := by
  rw [Ideal.ofBits_zero_f32, zero_sub]

/-- A `[R, 1024]` array and a `[R, 2048]` array side by side, read at row `r` and column `k`: the joined row. -/
theorem concat_row {R : Nat}
    (hc : Shape.Concatenates [(⟨2, ![R, 1024]⟩ : Shape), ⟨2, ![R, 2048]⟩] ⟨2, ![R, 3072]⟩ 1)
    (x₁ : (⟨2, ![R, 1024]⟩ : Shape).Idx → EReal) (x₂ : (⟨2, ![R, 2048]⟩ : Shape).Idx → EReal) (r : Fin R) (k : Fin 3072) :
    concatenate ⟨2, ![R, 3072]⟩ 1 [⟨⟨2, ![R, 1024]⟩, x₁⟩, ⟨⟨2, ![R, 2048]⟩, x₂⟩] hc (ix2 r k)
      = joined (fun k => x₁ (ix2 r k)) (fun k => x₂ (ix2 r k)) k := by
  unfold joined
  by_cases hk : k.val < 1024
  · rw [dif_pos hk]
    exact concatenate_pair_apply_left 1 x₁ x₂ hc (ix2 r k) rfl (ix2 r ⟨k.val, hk⟩) (fun b => by
      match b with
      | ⟨0, _⟩ => rfl
      | ⟨1, _⟩ => rfl)
  · rw [dif_neg hk]
    exact concatenate_pair_apply_right 1 x₁ x₂ hc (ix2 r k) rfl rfl (ix2 r ⟨k.val - 1024, by have := k.isLt; omega⟩)
      (fun b hb => by
        match b with
        | ⟨0, _⟩ => rfl
        | ⟨1, _⟩ => exact absurd rfl hb)
      (by show (k.val - 1024) + 1024 = k.val; omega)

end Cert.Ltc

end
-- ==== Proof.RefCell.lean ====
/-
  The reference computes the cell, entry by entry.

  The reference program joins `x` and `h` side by side once, multiplies the joined array by each weight matrix, adds
  the bias rows, and then works entry by entry. Read at entry `(r, j)`, each product is the sum over the 3072
  positions of the joined row `r` against column `j` of the weight matrix, every broadcast reads the entry `j` of its
  vector (or the time step of row `r`), and what is left is the cell's formula with the same operations in the same
  order. So the reference's result is `G` of its nine arguments.
-/
import proofs.«102878_j63702954934929_1_alg».proof.Proof.Gen.ReferenceIdeal.Read
import proofs.«102878_j63702954934929_1_alg».proof.Proof.Cell

noncomputable section

open scoped BigOperators

namespace Cert.Ltc.Ref

open Idealize.ShloMosaic Idealize.ShloMosaic.ValueIdx Cert.ReferenceIdeal Cert.ReferenceIdeal.Read Cert.Ltc

variable (x0 : S4096x1024.Idx → EReal) (x1 : S4096x2048.Idx → EReal) (x2 : S4096x1.Idx → EReal)
  (x3 x5 : S3072x2048.Idx → EReal) (x4 x6 x7 x8 : S2048.Idx → EReal)

/-- The joined array at row `r` and column `k` is the joined row. -/
theorem joined_entry (r : Fin 4096) (k : Fin 3072) :
    val_main_v0 (F := Ideal) x0 x1 (ix2 r k) = joined (fun k => x0 (ix2 r k)) (fun k => x1 (ix2 r k)) k := by
  unfold val_main_v0
  exact concat_row _ x0 x1 r k

/-- The modulation branch before its hyperbolic tangent, at entry `(r, j)`. -/
theorem pre_mod (r : Fin 4096) (j : Fin 2048) :
    val_main_v4 (F := Ideal) x0 x1 x3 x4 (ix2 r j)
      = pre (fun k => x0 (ix2 r k)) (fun k => x1 (ix2 r k)) (fun k => x3 (ix2 k j)) (x4 (ix1 j)) := by
  rw [val_main_v4_apply, val_main_v1_apply, val_main_v3_apply, val_main_v2_apply]
  have e3 : idx_main_v2 (idx_main_v3 (ix2 r j)) = ix1 j := funext fun a => Fin.ext (by match a with | ⟨0, _⟩ => rfl)
  rw [e3]
  show (∑ k : Fin 3072, _) + _ = (∑ k : Fin 3072, _) + _
  refine congrArg (· + x4 (ix1 j)) (Finset.sum_congr rfl fun k _ => ?_)
  have el : lidx_main_v1 (ix2 r j) k = ix2 r k :=
    funext fun a => Fin.ext (by match a with | ⟨0, _⟩ => rfl | ⟨1, _⟩ => rfl)
  have er : ridx_main_v1 (ix2 r j) k = ix2 k j :=
    funext fun a => Fin.ext (by match a with | ⟨0, _⟩ => rfl | ⟨1, _⟩ => rfl)
  rw [el, er, joined_entry]

/-- The target branch before its hyperbolic tangent, at entry `(r, j)`. -/
theorem pre_tgt (r : Fin 4096) (j : Fin 2048) :
    val_main_v9 (F := Ideal) x0 x1 x5 x6 (ix2 r j)
      = pre (fun k => x0 (ix2 r k)) (fun k => x1 (ix2 r k)) (fun k => x5 (ix2 k j)) (x6 (ix1 j)) := by
  rw [val_main_v9_apply, val_main_v6_apply, val_main_v8_apply, val_main_v7_apply]
  have e3 : idx_main_v7 (idx_main_v8 (ix2 r j)) = ix1 j := funext fun a => Fin.ext (by match a with | ⟨0, _⟩ => rfl)
  rw [e3]
  show (∑ k : Fin 3072, _) + _ = (∑ k : Fin 3072, _) + _
  refine congrArg (· + x6 (ix1 j)) (Finset.sum_congr rfl fun k _ => ?_)
  have el : lidx_main_v6 (ix2 r j) k = ix2 r k :=
    funext fun a => Fin.ext (by match a with | ⟨0, _⟩ => rfl | ⟨1, _⟩ => rfl)
  have er : ridx_main_v6 (ix2 r j) k = ix2 k j :=
    funext fun a => Fin.ext (by match a with | ⟨0, _⟩ => rfl | ⟨1, _⟩ => rfl)
  rw [el, er, joined_entry]

/-- The decay factor at entry `(r, j)`. -/
theorem decay_entry (r : Fin 4096) (j : Fin 2048) :
    val_main_v25 (F := Ideal) x0 x1 x2 x3 x4 x7 (ix2 r j)
      = decay (Ideal.tanh (val_main_v4 (F := Ideal) x0 x1 x3 x4 (ix2 r j))) (x7 (ix1 j)) (x2 (ix2 r 0)) := by
  have e18 : idx_main_v12 (idx_main_v18 (ix2 r j)) = ix1 j := funext fun a => Fin.ext (by match a with | ⟨0, _⟩ => rfl)
  have e23 : idx_main_v23 (ix2 r j) = ix2 r 0 :=
    funext fun a => Fin.ext (by match a with | ⟨0, _⟩ => rfl | ⟨1, _⟩ => rfl)
  rw [val_main_v25_apply, val_main_v24_apply, val_main_v23_apply, val_main_v20_apply, val_main_v22_apply,
    val_main_v19_apply, val_main_v18_apply, val_main_v12_apply, val_main_v11_apply, val_main_v17_apply,
    val_main_v16_apply, val_main_cst_apply, val_main_v15_apply, val_main_v14_apply, val_main_v12_apply,
    val_main_v11_apply, val_main_v13_apply, val_main_v5_apply, val_main_v21_apply, val_main_cst_0_apply,
    e18, e23]
  rfl

/-- THE REFERENCE'S RESULT IS THE CELL, entry by entry. -/
theorem result_eq : val_main_v33 (F := Ideal) x0 x1 x2 x3 x4 x5 x6 x7 x8 = G x0 x1 x2 x3 x4 x5 x6 x7 x8 := by
  funext i
  obtain ⟨r, j, rfl⟩ : ∃ (r : Fin 4096) (j : Fin 2048), i = ix2 r j := ⟨i 0, i 1, eq_ix2 i⟩
  have e30 : idx_main_v29 (idx_main_v30 (ix2 r j)) = ix1 j := funext fun a => Fin.ext (by match a with | ⟨0, _⟩ => rfl)
  rw [G_apply, val_main_v33_apply, val_main_v26_apply, val_main_v32_apply, val_main_v28_apply, val_main_v27_apply,
    val_main_cst_1_apply, val_main_v31_apply, val_main_v30_apply, val_main_v29_apply, val_main_v10_apply, e30,
    decay_entry, pre_mod, pre_tgt]
  rfl

end Cert.Ltc.Ref

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.BlockCell.lean ====
/-
  One grid point's block of the kernel's output is the cell of the block's rows.

  At a grid point the kernel holds 128 rows of `x`, of `h` and of `td`, both weight matrices whole and the four
  vectors as `[1, 2048]` rows. It joins the 128 rows of `x` and `h` side by side, multiplies by each weight matrix
  into a zero accumulator, adds the bias rows, and finishes entry by entry. Read at entry `(p, q)` of the block, each
  product is the sum over the joined row `p` against column `q`, a row broadcast down the block reads its column
  `q`, the column of time steps broadcast across the block reads its row `p`; the time step is negated by
  subtracting it from zero. What is left is the cell's formula.
-/
import proofs.«102878_j63702954934929_1_alg».proof.Proof.Gen.KernelIdeal.Value
import proofs.«102878_j63702954934929_1_alg».proof.Proof.Cell
import proofs.«102878_j63702954934929_1_alg».proof.Proof.LibMatProd
import proofs.«102878_j63702954934929_1_alg».proof.Proof.LibBroadcastTo

noncomputable section

open scoped BigOperators

namespace Cert.Ltc.Block

open Idealize.ShloMosaic Idealize.ShloMosaic.ValueIdx Cert.KernelIdeal Cert.KernelIdeal.Gen Cert.Ltc

variable (P0 : Vec Ideal S128x1024 .f32) (P1 : Vec Ideal S128x2048 .f32) (W : Vec Ideal S3072x2048 .bf16)
  (b : Vec Ideal S1x2048 .f32)

/-- The joined block, converted to the narrow format (no change over the extended reals), at row `p` and column `k`. -/
theorem joined_entry (p : Fin 128) (k : Fin 3072) :
    k0_pay2 (F := Ideal) P0 P1 (ix2 p k) = joined (fun k => P0 (ix2 p k)) (fun k => P1 (ix2 p k)) k := by
  unfold k0_pay2
  exact concat_row concatenates_S128x1024_S128x2048_S128x3072_d1 P0 P1 p k

/-- The printed contraction record is the plain matrix product's. -/
theorem dot_plain : dot_S128x3072_S3072x2048_S128x2048_1_0_0_1_n_n = DotDims.plain 128 3072 2048 := rfl

/-- A branch before its hyperbolic tangent, at entry `(p, q)` of the block. -/
theorem pre_entry (p : Fin 128) (q : Fin 2048) :
    (addf (matmul (φ₂ := .bf16) dot_S128x3072_S3072x2048_S128x2048_1_0_0_1_n_n none (k0_pay2 (F := Ideal) P0 P1)
        (shapeCast S3072x2048 W shapeCasts_S3072x2048_S3072x2048) (constant S128x2048 .f32 0x00000000#32))
      (broadcastTo S128x2048 (shapeCast S1x2048 b shapeCasts_S1x2048_S1x2048) broadcasts_S1x2048_S128x2048)) (ix2 p q)
      = pre (fun k => P0 (ix2 p k)) (fun k => P1 (ix2 p k)) (fun k => W (ix2 k q)) (b (ix2 0 q)) := by
  rw [shapeCast_self, shapeCast_self]
  show FloatOps.matmul (φ₂ := .bf16) dot_S128x3072_S3072x2048_S128x2048_1_0_0_1_n_n none (k0_pay2 (F := Ideal) P0 P1) W
      (constant S128x2048 .f32 0x00000000#32) (ix2 p q) + broadcastTo S128x2048 b broadcasts_S1x2048_S128x2048 (ix2 p q) = _
  rw [Cert.BroadcastTo.row_apply, dot_plain, Cert.MatProd.matmul_plain_zero_apply]
  unfold pre
  refine congrArg (· + b (ix2 0 q)) (Finset.sum_congr rfl fun k _ => ?_)
  rw [joined_entry]

variable (Wm Wt : Vec Ideal S3072x2048 .bf16) (bm bt lt bi : Vec Ideal S1x2048 .f32) (δ : Vec Ideal S128x1 .f32)

/-- The target branch at entry `(p, q)` of the block. -/
theorem target_entry (p : Fin 128) (q : Fin 2048) :
    k0_pay3 (F := Ideal) P0 P1 Wt bt (ix2 p q)
      = Ideal.tanh (pre (fun k => P0 (ix2 p k)) (fun k => P1 (ix2 p k)) (fun k => Wt (ix2 k q)) (bt (ix2 0 q))) := by
  unfold k0_pay3
  exact congrArg Ideal.tanh (pre_entry P0 P1 Wt bt p q)

/-- The entrywise tail of the decay factor: from the negated time step `A`, the time constant `B` and the modulation
    branch before its hyperbolic tangent `D`, all at entry `i`. -/
theorem decay_tail (A B D : FVec Ideal S128x2048 .f32) (i : S128x2048.Idx) (a τ d : EReal)
    (hA : A i = a) (hB : B i = τ) (hD : D i = d) :
    (exp (divf A (addf (divf B (addf (broadcast S128x2048 (Scalar.ofBits .f32 0x3F800000#32))
      (mulf B (absf (tanh D))))) (broadcast S128x2048 (Scalar.ofBits .f32 0x358637BD#32))))) i
      = Ideal.exp (Ideal.div a (Ideal.div τ (one + τ * max (Ideal.tanh d) (-Ideal.tanh d)) + eps)) := by
  subst hA hB hD
  rfl

/-- The decay factor at entry `(p, q)` of the block. -/
theorem decay_entry (p : Fin 128) (q : Fin 2048) :
    k0_pay4 (F := Ideal) P0 P1 Wm bm lt δ (ix2 p q)
      = decay (Ideal.tanh (pre (fun k => P0 (ix2 p k)) (fun k => P1 (ix2 p k)) (fun k => Wm (ix2 k q)) (bm (ix2 0 q))))
          (lt (ix2 0 q)) (δ (ix2 p 0)) := by
  have hτ : broadcastTo S128x2048 (exp (shapeCast S1x2048 lt shapeCasts_S1x2048_S1x2048) : FVec Ideal S1x2048 .f32) broadcasts_S1x2048_S128x2048 (ix2 p q)
      = Ideal.exp (lt (ix2 0 q)) := by
    rw [Cert.BroadcastTo.row_apply, shapeCast_self]; rfl
  have hδ : broadcastTo S128x2048 (subf (broadcast S128x1 (Scalar.ofBits (F := Ideal) .f32 0x00000000#32)) δ : FVec Ideal S128x1 .f32) broadcasts_S128x1_S128x2048 (ix2 p q)
      = -(δ (ix2 p 0)) := by
    rw [Cert.BroadcastTo.col_apply]; exact zero_word_sub _
  unfold k0_pay4 decay
  exact decay_tail _ _ _ (ix2 p q) _ _ _ hδ hτ (pre_entry P0 P1 Wm bm p q)

/-- ENTRY `(p, q)` OF THE BLOCK the kernel leaves at a grid point is the cell of the block's rows. -/
theorem block_entry (p : Fin 128) (q : Fin 2048) :
    Cert.KernelIdeal.Value.E9 (F := Ideal) P0 P1 Wm bm lt δ Wt bt bi (ix2 p q)
      = cell (fun k => P0 (ix2 p k)) (fun k => P1 (ix2 p k)) (δ (ix2 p 0)) (fun k => Wm (ix2 k q)) (bm (ix2 0 q))
          (fun k => Wt (ix2 k q)) (bt (ix2 0 q)) (lt (ix2 0 q)) (bi (ix2 0 q)) q := by
  have e0 : Cert.KernelIdeal.Value.ix9_0 (ix2 p q) = ix2 p q :=
    funext fun a => Fin.ext (by match a with | ⟨0, _⟩ => rfl | ⟨1, _⟩ => rfl)
  have e1 : Cert.KernelIdeal.Value.ix9_1 (ix2 p q) = ix2 p q :=
    funext fun a => Fin.ext (by match a with | ⟨0, _⟩ => rfl | ⟨1, _⟩ => rfl)
  have e2 : Cert.KernelIdeal.Value.ix9_2 (ix2 p q) = ix2 p q :=
    funext fun a => Fin.ext (by match a with | ⟨0, _⟩ => rfl | ⟨1, _⟩ => rfl)
  have e3 : Cert.KernelIdeal.Value.ix9_3 (ix2 p q) = ix2 p q :=
    funext fun a => Fin.ext (by match a with | ⟨0, _⟩ => rfl | ⟨1, _⟩ => rfl)
  have e4 : Cert.KernelIdeal.Value.ix9_4 (ix2 p q) = ix2 0 q :=
    funext fun a => Fin.ext (by match a with | ⟨0, _⟩ => rfl | ⟨1, _⟩ => rfl)
  show k0_pay4 (F := Ideal) P0 P1 Wm bm lt δ (Cert.KernelIdeal.Value.ix9_0 (ix2 p q)) * P1 (Cert.KernelIdeal.Value.ix9_1 (ix2 p q))
      + (one - k0_pay4 (F := Ideal) P0 P1 Wm bm lt δ (Cert.KernelIdeal.Value.ix9_2 (ix2 p q)))
        * (k0_pay3 (F := Ideal) P0 P1 Wt bt (Cert.KernelIdeal.Value.ix9_3 (ix2 p q)) + bi (Cert.KernelIdeal.Value.ix9_4 (ix2 p q))) = _
  rw [e0, e1, e2, e3, e4, decay_entry, target_entry]
  rfl

end Cert.Ltc.Block

end
-- ==== Proof.Blocks.lean ====
/-
  From the blocks the grid points write to the whole output array.

  The grid has 32 points; point `t` holds rows `128 t … 128 t + 127` of `x`, `h` and `td`, the two weight matrices
  whole (converted to the narrow format before the call, no change over the extended reals) and the four vectors as
  `[1, 2048]` rows (reshaped before the call), and writes rows `128 t … 128 t + 127` of the output. Entry `(p, q)` of
  what point `t` writes is the cell of the block's rows, that is of rows `128 t + p` of the arguments: entry
  `(128 t + p, q)` of `G`. The 32 row blocks cover the output (row `r` lies in block `r / 128`), so the output array
  ends holding `G` of the nine arguments.
-/
import proofs.«102878_j63702954934929_1_alg».proof.Proof.Gen.KernelIdeal.Value
import proofs.«102878_j63702954934929_1_alg».proof.Proof.Cell
import proofs.«102878_j63702954934929_1_alg».proof.Proof.BlockCell
import Idealize.ShloMosaic.Lib.Pipeline.Value
import Idealize.ShloMosaic.Lib.StableHlo.Run
import Idealize.ShloMosaic.Lib.ValueIdx

noncomputable section

namespace Cert.Ltc.Kernel

open Cert.KernelIdeal Cert.KernelIdeal.Gen Idealize.ShloMosaic Idealize.ShloMosaic.TcCoe Idealize.SL.Sem
open Idealize.ShloMosaic.ValueIdx Idealize.ShloMosaic.StableHlo Cert.Ltc
open Idealize.ShloMosaic.Pipeline (Dat)

variable (m : (ℓ : Loc nD τ sig) → Buf (Elt Ideal) ℓ) (ρ : Dev nD → PrngReg)

/-- The cell of the nine arguments as launched on core `c`. -/
def result (c : Dev nD) : S4096x2048.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem hz : (![0, 0] : Fin 2 → Nat) = fun _ => 0 := funext fun a => by fin_cases a <;> rfl

/-! ## What the call finds in the arrays the host prepared -/

/-- The modulation weights converted to the narrow format: the same extended reals. -/
theorem V_wmod (c : Dev nD) :
    (V m c main_v0 : S3072x2048.Idx → EReal) = (m ((c : Thread nD τ).loc main_arg3) : S3072x2048.Idx → EReal) := by
  dsimp only [V, hostOps0]; after_results; rfl

/-- The target weights converted to the narrow format: the same extended reals. -/
theorem V_wtgt (c : Dev nD) :
    (V m c main_v1 : S3072x2048.Idx → EReal) = (m ((c : Thread nD τ).loc main_arg5) : S3072x2048.Idx → EReal) := by
  dsimp only [V, hostOps0]; after_results; rfl

/-- A vector of 2048 entries reshaped to a `[1, 2048]` row, read at column `q`. -/
theorem row_of_vec (v : S2048.Idx → EReal) (h : S2048.ShapeCasts S1x2048) (q : Fin 2048) :
    shapeCast S1x2048 v h (ix2 0 q) = v (ix1 q) :=
  (shapeCast_addUnit_apply (n := 1) ![2048] v h (ix2 0 q)).trans
    (congrArg v (funext fun a => by match a with | ⟨0, _⟩ => rfl))

theorem V_bmod (c : Dev nD) (q : Fin 2048) :
    (V m c main_v2 : S1x2048.Idx → EReal) (ix2 0 q) = (m ((c : Thread nD τ).loc main_arg4) : S2048.Idx → EReal) (ix1 q) := by
  have e : (V m c main_v2 : S1x2048.Idx → EReal)
      = shapeCast S1x2048 (m ((c : Thread nD τ).loc main_arg4) : S2048.Idx → EReal) shapeCasts_S2048_S1x2048 := by
    dsimp only [V, hostOps0]; after_results; rfl
  rw [e, row_of_vec]

theorem V_btgt (c : Dev nD) (q : Fin 2048) :
    (V m c main_v3 : S1x2048.Idx → EReal) (ix2 0 q) = (m ((c : Thread nD τ).loc main_arg6) : S2048.Idx → EReal) (ix1 q) := by
  have e : (V m c main_v3 : S1x2048.Idx → EReal)
      = shapeCast S1x2048 (m ((c : Thread nD τ).loc main_arg6) : S2048.Idx → EReal) shapeCasts_S2048_S1x2048 := by
    dsimp only [V, hostOps0]; after_results; rfl
  rw [e, row_of_vec]

theorem V_logtau (c : Dev nD) (q : Fin 2048) :
    (V m c main_v4 : S1x2048.Idx → EReal) (ix2 0 q) = (m ((c : Thread nD τ).loc main_arg7) : S2048.Idx → EReal) (ix1 q) := by
  have e : (V m c main_v4 : S1x2048.Idx → EReal)
      = shapeCast S1x2048 (m ((c : Thread nD τ).loc main_arg7) : S2048.Idx → EReal) shapeCasts_S2048_S1x2048 := by
    dsimp only [V, hostOps0]; after_results; rfl
  rw [e, row_of_vec]

theorem V_bias (c : Dev nD) (q : Fin 2048) :
    (V m c main_v5 : S1x2048.Idx → EReal) (ix2 0 q) = (m ((c : Thread nD τ).loc main_arg8) : S2048.Idx → EReal) (ix1 q) := by
  have e : (V m c main_v5 : S1x2048.Idx → EReal)
      = shapeCast S1x2048 (m ((c : Thread nD τ).loc main_arg8) : S2048.Idx → EReal) shapeCasts_S2048_S1x2048 := by
    dsimp only [V, hostOps0]; after_results; rfl
  rw [e, row_of_vec]

/-! ## The index maps -/

/-- The printed index maps at a grid point: the three row-blocked inputs and the output sit at block row `t`, every
    other window at its one block. -/
structure IdxFacts (t : Fin cfg0.N) : Prop where
  w0r : win0_0.index t (0 : Fin 2) = t.val
  w0c : win0_0.index t (1 : Fin 2) = 0
  w1r : win0_1.index t (0 : Fin 2) = t.val
  w1c : win0_1.index t (1 : Fin 2) = 0
  w2r : win0_2.index t (0 : Fin 2) = t.val
  w2c : win0_2.index t (1 : Fin 2) = 0
  w3r : win0_3.index t (0 : Fin 2) = 0
  w3c : win0_3.index t (1 : Fin 2) = 0
  w4r : win0_4.index t (0 : Fin 2) = 0
  w4c : win0_4.index t (1 : Fin 2) = 0
  w5r : win0_5.index t (0 : Fin 2) = 0
  w5c : win0_5.index t (1 : Fin 2) = 0
  w6r : win0_6.index t (0 : Fin 2) = 0
  w6c : win0_6.index t (1 : Fin 2) = 0
  w7r : win0_7.index t (0 : Fin 2) = 0
  w7c : win0_7.index t (1 : Fin 2) = 0
  w8r : win0_8.index t (0 : Fin 2) = 0
  w8c : win0_8.index t (1 : Fin 2) = 0
  w9r : win0_9.index t (0 : Fin 2) = t.val
  w9c : win0_9.index t (1 : Fin 2) = 0

/-- Decided over the 32 grid points. -/
theorem idx_conj : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem idx_facts (t : Fin cfg0.N) : IdxFacts t := by
  obtain ⟨h00, h01, h10, h11, h20, h21, h30, h31, h40, h41, h50, h51, h60, h61, h70, h71, h80, h81, h90, h91⟩ := idx_conj t
  exact ⟨h00, h01, h10, h11, h20, h21, h30, h31, h40, h41, h50, h51, h60, h61, h70, h71, h80, h81, h90, h91⟩

theorem lt32 (t : Fin cfg0.N) : t.val < 32 := lt_of_lt_of_eq t.isLt N_0

/-- The array row that row `p` of point `t`'s block is. -/
def rowOf (t : Fin cfg0.N) (p : Fin 128) : Fin 4096 := ⟨t.val * 128 + p.val, by have := lt32 t; have := p.isLt; omega⟩

/-! ## The blocks a grid point reads -/

/-- Row `p` of point `t`'s block of `x` is row `128 t + p` of `x`. -/
theorem blk_x (c : Dev nD) (t : Fin cfg0.N) (p : Fin 128) (k : Fin 1024) :
    iblk m c 0 t (ix2 p k) = (m ((c : Thread nD τ).loc main_arg0) : S4096x1024.Idx → EReal) (ix2 (rowOf t p) k) := by
  have e0 := (idx_facts t).w0r
  have e1 := (idx_facts t).w0c
  show V m c main_arg0 (((cfg0.win 0).blk t).view.emb (ix2 p k)) = _
  rw [V_main_arg0]
  refine congrArg (m ((c : Thread nD τ).loc main_arg0) : S4096x1024.Idx → EReal) (funext fun a => Fin.ext ?_)
  match a with
  | ⟨0, _⟩ => show win0_0.index t (0 : Fin 2) * 128 + 1 * p.val = t.val * 128 + p.val; rw [e0]; omega
  | ⟨1, _⟩ => show win0_0.index t (1 : Fin 2) * 1024 + 1 * k.val = k.val; rw [e1]; omega

/-- Row `p` of point `t`'s block of `h` is row `128 t + p` of `h`. -/
theorem blk_h (c : Dev nD) (t : Fin cfg0.N) (p : Fin 128) (k : Fin 2048) :
    iblk m c 1 t (ix2 p k) = (m ((c : Thread nD τ).loc main_arg1) : S4096x2048.Idx → EReal) (ix2 (rowOf t p) k) := by
  have e0 := (idx_facts t).w1r
  have e1 := (idx_facts t).w1c
  show V m c main_arg1 (((cfg0.win 1).blk t).view.emb (ix2 p k)) = _
  rw [V_main_arg1]
  refine congrArg (m ((c : Thread nD τ).loc main_arg1) : S4096x2048.Idx → EReal) (funext fun a => Fin.ext ?_)
  match a with
  | ⟨0, _⟩ => show win0_1.index t (0 : Fin 2) * 128 + 1 * p.val = t.val * 128 + p.val; rw [e0]; omega
  | ⟨1, _⟩ => show win0_1.index t (1 : Fin 2) * 2048 + 1 * k.val = k.val; rw [e1]; omega

/-- Row `p` of point `t`'s block of time steps is the time step of row `128 t + p`. -/
theorem blk_td (c : Dev nD) (t : Fin cfg0.N) (p : Fin 128) :
    iblk m c 2 t (ix2 p 0) = (m ((c : Thread nD τ).loc main_arg2) : S4096x1.Idx → EReal) (ix2 (rowOf t p) 0) := by
  have e0 := (idx_facts t).w2r
  have e1 := (idx_facts t).w2c
  show V m c main_arg2 (((cfg0.win 2).blk t).view.emb (ix2 p 0)) = _
  rw [V_main_arg2]
  refine congrArg (m ((c : Thread nD τ).loc main_arg2) : S4096x1.Idx → EReal) (funext fun a => Fin.ext ?_)
  match a with
  | ⟨0, _⟩ => show win0_2.index t (0 : Fin 2) * 128 + 1 * p.val = t.val * 128 + p.val; rw [e0]; omega
  | ⟨1, _⟩ => show win0_2.index t (1 : Fin 2) * 1 + 1 * 0 = 0; rw [e1]
/-- Every point holds the modulation weights whole. -/
theorem blk_wmod (c : Dev nD) (t : Fin cfg0.N) (k : Fin 3072) (q : Fin 2048) :
    iblk m c 3 t (ix2 k q) = (m ((c : Thread nD τ).loc main_arg3) : S3072x2048.Idx → EReal) (ix2 k q) := by
  have e0 := (idx_facts t).w3r
  have e1 := (idx_facts t).w3c
  show V m c main_v0 (((cfg0.win 3).blk t).view.emb (ix2 k q)) = _
  have e : ((cfg0.win 3).blk t).view.emb (ix2 k q) = ix2 k q := funext fun a => Fin.ext (by
    match a with
    | ⟨0, _⟩ => show win0_3.index t (0 : Fin 2) * 3072 + 1 * k.val = k.val; rw [e0]; omega
    | ⟨1, _⟩ => show win0_3.index t (1 : Fin 2) * 2048 + 1 * q.val = q.val; rw [e1]; omega)
  rw [e]
  exact congrFun (V_wmod m c) (ix2 k q)

/-- Every point holds the target weights whole. -/
theorem blk_wtgt (c : Dev nD) (t : Fin cfg0.N) (k : Fin 3072) (q : Fin 2048) :
    iblk m c 5 t (ix2 k q) = (m ((c : Thread nD τ).loc main_arg5) : S3072x2048.Idx → EReal) (ix2 k q) := by
  have e0 := (idx_facts t).w5r
  have e1 := (idx_facts t).w5c
  show V m c main_v1 (((cfg0.win 5).blk t).view.emb (ix2 k q)) = _
  have e : ((cfg0.win 5).blk t).view.emb (ix2 k q) = ix2 k q := funext fun a => Fin.ext (by
    match a with
    | ⟨0, _⟩ => show win0_5.index t (0 : Fin 2) * 3072 + 1 * k.val = k.val; rw [e0]; omega
    | ⟨1, _⟩ => show win0_5.index t (1 : Fin 2) * 2048 + 1 * q.val = q.val; rw [e1]; omega)
  rw [e]
  exact congrFun (V_wtgt m c) (ix2 k q)

/-- Every point holds the modulation bias as a row. -/
theorem blk_bmod (c : Dev nD) (t : Fin cfg0.N) (q : Fin 2048) :
    iblk m c 4 t (ix2 0 q) = (m ((c : Thread nD τ).loc main_arg4) : S2048.Idx → EReal) (ix1 q) := by
  have e0 := (idx_facts t).w4r
  have e1 := (idx_facts t).w4c
  show V m c main_v2 (((cfg0.win 4).blk t).view.emb (ix2 0 q)) = _
  have e : ((cfg0.win 4).blk t).view.emb (ix2 0 q) = ix2 0 q := funext fun a => Fin.ext (by
    match a with
    | ⟨0, _⟩ => show win0_4.index t (0 : Fin 2) * 1 + 1 * 0 = 0; rw [e0]
    | ⟨1, _⟩ => show win0_4.index t (1 : Fin 2) * 2048 + 1 * q.val = q.val; rw [e1]; omega)
  rw [e]
  exact V_bmod m c q

/-- Every point holds the target bias as a row. -/
theorem blk_btgt (c : Dev nD) (t : Fin cfg0.N) (q : Fin 2048) :
    iblk m c 6 t (ix2 0 q) = (m ((c : Thread nD τ).loc main_arg6) : S2048.Idx → EReal) (ix1 q) := by
  have e0 := (idx_facts t).w6r
  have e1 := (idx_facts t).w6c
  show V m c main_v3 (((cfg0.win 6).blk t).view.emb (ix2 0 q)) = _
  have e : ((cfg0.win 6).blk t).view.emb (ix2 0 q) = ix2 0 q := funext fun a => Fin.ext (by
    match a with
    | ⟨0, _⟩ => show win0_6.index t (0 : Fin 2) * 1 + 1 * 0 = 0; rw [e0]
    | ⟨1, _⟩ => show win0_6.index t (1 : Fin 2) * 2048 + 1 * q.val = q.val; rw [e1]; omega)
  rw [e]
  exact V_btgt m c q

/-- Every point holds the logarithm of the time constant as a row. -/
theorem blk_logtau (c : Dev nD) (t : Fin cfg0.N) (q : Fin 2048) :
    iblk m c 7 t (ix2 0 q) = (m ((c : Thread nD τ).loc main_arg7) : S2048.Idx → EReal) (ix1 q) := by
  have e0 := (idx_facts t).w7r
  have e1 := (idx_facts t).w7c
  show V m c main_v4 (((cfg0.win 7).blk t).view.emb (ix2 0 q)) = _
  have e : ((cfg0.win 7).blk t).view.emb (ix2 0 q) = ix2 0 q := funext fun a => Fin.ext (by
    match a with
    | ⟨0, _⟩ => show win0_7.index t (0 : Fin 2) * 1 + 1 * 0 = 0; rw [e0]
    | ⟨1, _⟩ => show win0_7.index t (1 : Fin 2) * 2048 + 1 * q.val = q.val; rw [e1]; omega)
  rw [e]
  exact V_logtau m c q

/-- Every point holds the output bias as a row. -/
theorem blk_bias (c : Dev nD) (t : Fin cfg0.N) (q : Fin 2048) :
    iblk m c 8 t (ix2 0 q) = (m ((c : Thread nD τ).loc main_arg8) : S2048.Idx → EReal) (ix1 q) := by
  have e0 := (idx_facts t).w8r
  have e1 := (idx_facts t).w8c
  show V m c main_v5 (((cfg0.win 8).blk t).view.emb (ix2 0 q)) = _
  have e : ((cfg0.win 8).blk t).view.emb (ix2 0 q) = ix2 0 q := funext fun a => Fin.ext (by
    match a with
    | ⟨0, _⟩ => show win0_8.index t (0 : Fin 2) * 1 + 1 * 0 = 0; rw [e0]
    | ⟨1, _⟩ => show win0_8.index t (1 : Fin 2) * 2048 + 1 * q.val = q.val; rw [e1]; omega)
  rw [e]
  exact V_bias m c q

/-! ## What a grid point writes, and the whole array -/

/-- WHAT POINT `t` WRITES BACK is block `t` of the cell of the arguments: entry `(p, q)` of the block is the cell of the
    block's rows, and row `p` of each row-blocked input at point `t` is row `128 t + p` of the argument. -/
theorem flushed_eq (c : Dev nD) (t : Fin cfg0.N) :
    (dats m 0 c).flushed 9 t = ((cfg0.win 9).blk t).view.read (Elt Ideal) (result m c) := by
  rw [Cert.KernelIdeal.Value.flushed9]
  unfold out0_9
  simp only [View.ld_unit_zero (S := S128x1024) hz, View.ld_unit_zero (S := S128x2048) hz,
    View.ld_unit_zero (S := S3072x2048) hz, View.ld_unit_zero (S := S1x2048) hz, View.ld_unit_zero (S := S128x1) hz]
  funext y
  obtain ⟨p, q, rfl⟩ : ∃ (p : Fin 128) (q : Fin 2048), y = ix2 p q := ⟨y 0, y 1, eq_ix2 y⟩
  show View.canon ([⟨r0_1, k0_pay1 (F := Ideal) (k0_pay3 (iblk m c 0 t) (iblk m c 1 t) (iblk m c 5 t) (iblk m c 6 t))
      (k0_pay4 (iblk m c 0 t) (iblk m c 1 t) (iblk m c 3 t) (iblk m c 4 t) (iblk m c 7 t) (iblk m c 2 t))
      (iblk m c 1 t) (iblk m c 8 t)⟩] : List (View.Piece (Elt Ideal) S128x2048 .f32)) (ix2 p q)
    = result m c (((cfg0.win 9).blk t).view.emb (ix2 p q))
  refine (Cert.KernelIdeal.Value.canon9_eq (F := Ideal) (iblk m c 0 t) (iblk m c 1 t) (iblk m c 3 t) (iblk m c 4 t)
    (iblk m c 7 t) (iblk m c 2 t) (iblk m c 5 t) (iblk m c 6 t) (iblk m c 8 t) (ix2 p q)).trans ?_
  refine (Block.block_entry (iblk m c 0 t) (iblk m c 1 t) (iblk m c 3 t) (iblk m c 5 t) (iblk m c 4 t) (iblk m c 6 t)
    (iblk m c 7 t) (iblk m c 8 t) (iblk m c 2 t) p q).trans ?_
  have he : ((cfg0.win 9).blk t).view.emb (ix2 p q) = ix2 (rowOf t p) q := funext fun a => Fin.ext (by
    match a with
    | ⟨0, _⟩ => show win0_9.index t (0 : Fin 2) * 128 + 1 * p.val = t.val * 128 + p.val; rw [(idx_facts t).w9r]; omega
    | ⟨1, _⟩ => show win0_9.index t (1 : Fin 2) * 2048 + 1 * q.val = q.val; rw [(idx_facts t).w9c]; omega)
  rw [he]
  unfold result
  rw [G_apply]
  simp only [blk_x, blk_h, blk_td, blk_wmod, blk_wtgt, blk_bmod, blk_btgt, blk_logtau, blk_bias]

/-- An index of the output array is in point `t`'s block iff each coordinate is in the block's range on its axis. -/
theorem mem_blk (t : Fin cfg0.N) (i : S4096x2048.Idx) :
    i ∈ ((cfg0.win 9).blk t).view.set ↔ ∀ a : Fin 2, win0_9.index t a * S128x2048.size a ≤ (i a).val
      ∧ (i a).val < win0_9.index t a * S128x2048.size a + S128x2048.size a := by
  show i ∈ ((View.whole main_v6).slice (win0_9.rect t)).set ↔ _
  rw [View.set_slice_whole, Rect.mem_set_unit]
  exact Iff.rfl

/-- THE BLOCKS COVER THE OUTPUT: row `r` lies in the block of point `r / 128`. -/
theorem cover (i : S4096x2048.Idx) :
    ∃ t : Fin cfg0.N, (cfg0.win 9).flush t = true ∧ i ∈ ((cfg0.win 9).blk t).view.set := by
  have hi0 : (i 0).val < 4096 := (i 0).isLt
  have hi1 : (i 1).val < 2048 := (i 1).isLt
  obtain ⟨t, ht⟩ : ∃ t : Fin cfg0.N, t.val = (i 0).val / 128 :=
    ⟨⟨(i 0).val / 128, lt_of_lt_of_eq (by omega : (i 0).val / 128 < 32) N_0.symm⟩, rfl⟩
  refine ⟨t, flush0_9 t, ?_⟩
  rw [mem_blk]
  have e0 := (idx_facts t).w9r
  have e1 := (idx_facts t).w9c
  intro a
  match a with
  | ⟨0, _⟩ =>
    show win0_9.index t (0 : Fin 2) * 128 ≤ (i 0).val ∧ (i 0).val < win0_9.index t (0 : Fin 2) * 128 + 128
    rw [e0, ht]; omega
  | ⟨1, _⟩ =>
    show win0_9.index t (1 : Fin 2) * 2048 ≤ (i 1).val ∧ (i 1).val < win0_9.index t (1 : Fin 2) * 2048 + 2048
    rw [e1]; omega

/-- THE OUTPUT ARRAY after the run is the cell of the arguments. -/
theorem final (c : Dev nD) : (dats m 0 c).arrAt 9 cfg0.N = result m c :=
  (dats m 0 c).arrAt_eq_of_cover 9 (result m c) (fun t _ => flushed_eq m c t) cover

/-- The kernel's run: every weakly fair execution terminates with the output array at the cell of the arguments,
    the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩)
    (Cert.KernelIdeal.Value.run_blocks m ρ)

end Cert.Ltc.Kernel

end
-- ==== Proof.lean ====
/-
  A liquid-time-constant cell step, fused into one kernel over 32 blocks of 128 batch rows, against its plain
  array-level formulation.

  Both programs compute, for a batch of 4096 states `h` (2048 wide), inputs `x` (1024 wide) and time steps `td`,

      f  = tanh ([x | h] · Wmod + bmod)          a = tanh ([x | h] · Wtgt + btgt)
      τ  = exp logτ                              d = exp (-td / (τ / (1 + τ · |f|) + 10⁻⁶))
      h' = d · h + (1 - d) · (a + bias).

  Over the extended reals they are the same function, entry by entry, with the same operations in the same order:
  entry `(r, j)` of `h'` depends only on row `r` of `x`, `h`, `td` and on column `j` of the weights and vectors
  (Proof/Cell.lean states it as `cell`, and the whole result as `G`). The differences between the two programs are
  of layout and format only: the kernel converts the weights and the joined rows to a narrower float format before
  multiplying (no change over the extended reals), multiplies into a zero accumulator, keeps the vectors as
  `[1, 2048]` rows, negates the time step by subtracting it from zero, and works on 128 rows at a time.
  No law that needs finiteness is used, so the precondition is never opened.

    * Proof/RefCell.lean — the reference's result is `G` of its arguments;
    * Proof/BlockCell.lean — entry `(p, q)` of the block the kernel leaves at a grid point is `cell` of the block's rows;
    * Proof/Blocks.lean — row `p` of point `t`'s blocks is row `128 t + p` of the arguments, the 32 blocks cover
      the output, so the kernel's output array ends at `G` of its arguments.

  The three frames are the generated frame runs; the idealization rewrote nothing, so `preserves` is trivial.
-/
import proofs.«102878_j63702954934929_1_alg».proof.Defs
import proofs.«102878_j63702954934929_1_alg».proof.Proof.Gen.Kernel
import proofs.«102878_j63702954934929_1_alg».proof.Proof.Gen.Kernel.Skeleton
import proofs.«102878_j63702954934929_1_alg».proof.Proof.Gen.Kernel.Launch
import proofs.«102878_j63702954934929_1_alg».proof.Proof.Gen.Kernel.Points
import proofs.«102878_j63702954934929_1_alg».proof.Proof.Gen.Kernel.Frame
import proofs.«102878_j63702954934929_1_alg».proof.Proof.Gen.KernelIdeal
import proofs.«102878_j63702954934929_1_alg».proof.Proof.Gen.KernelIdeal.Skeleton
import proofs.«102878_j63702954934929_1_alg».proof.Proof.Gen.KernelIdeal.Launch
import proofs.«102878_j63702954934929_1_alg».proof.Proof.Gen.KernelIdeal.Points
import proofs.«102878_j63702954934929_1_alg».proof.Proof.Gen.KernelIdeal.Frame
import proofs.«102878_j63702954934929_1_alg».proof.Proof.Gen.ReferenceIdeal
import proofs.«102878_j63702954934929_1_alg».proof.Proof.Gen.KernelIdeal.Value
import proofs.«102878_j63702954934929_1_alg».proof.Proof.Gen.ReferenceIdeal.Run
import proofs.«102878_j63702954934929_1_alg».proof.Proof.Gen.ReferenceIdeal.Read
import proofs.«102878_j63702954934929_1_alg».proof.Proof.Gen.Pre_finite_inputs
import proofs.«102878_j63702954934929_1_alg».proof.Proof.RefCell
import proofs.«102878_j63702954934929_1_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference's run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the nine arguments, both programs end with the cell of those arguments. -/
theorem algebraic : Cert.algebraic_KernelIdeal_ReferenceIdeal := by
  intro m ρ m' ρ' _ hagree
  refine ⟨fun c => Cert.Ltc.Kernel.result m c, Cert.Ltc.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [h0, h1, h2, h3, h4, h5, h6, h7, h8]
  exact (Cert.ReferenceIdeal.Read.val_main_v33_eq _ _ _ _ _ _ _ _ _).trans (Cert.Ltc.Ref.result_eq _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
